-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x512 : Shape := ⟨2, ![128, 512]⟩
abbrev S512 : Shape := ⟨1, ![512]⟩
abbrev S512x256 : Shape := ⟨2, ![512, 256]⟩
abbrev S256 : Shape := ⟨1, ![256]⟩
abbrev S256x512 : Shape := ⟨2, ![256, 512]⟩
abbrev S512x128 : Shape := ⟨2, ![512, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x512 : S_.BroadcastsInDim S256x512 (![] : Fin 0 → Fin S256x512.rank)
  reducesTo_S256x512_S_d0_1 : S256x512.ReducesTo [0, 1] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S512x128 .f32) (main_arg9 : FVec F S128 .f32) (main_v33 : IVec S_ 1) : IVec S_ 1 :=
  let main_v34 : FVec F S512x128 .f32 := Host.absf main_arg8
  let main_cst_12 : FVec F S_ .f32 := constant S_ .f32 0x7F800000#32
  let main_v35 : FVec F S512x128 .f32 := broadcastInDim S512x128 ![] bcast_S_S512x128 main_cst_12
  let main_v36 : IVec S512x128 1 := cmpf .olt main_v34 main_v35
  let main_c_13 : IVec S_ 1 := constantI S_ 1 1#1
  let main_v37 : IVec S_ 1 := (fun x v => Host.reduce IntOp.andi x v reducesTo_S512x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S256 .f32) (main_arg6 : FVec F S256x512 .f32) (main_arg7 : FVec F S512 .f32) (main_arg8 : FVec F S512x128 .f32) (main_arg9 : FVec F S128 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x512 .f32 := Host.absf main_arg6
  let main_cst_8 : FVec F S_ .f32 := constant S_ .f32 0x7F800000#32
  let main_v25 : FVec F S256x512 .f32 := broadcastInDim S256x512 ![] bcast_S_S256x512 main_cst_8
  let main_v26 : IVec S256x512 1 := cmpf .olt main_v24 main_v25
  let main_c_9 : IVec S_ 1 := constantI S_ 1 1#1
  let main_v27 : IVec S_ 1 := (fun x v => Host.reduce IntOp.andi x v reducesTo_S256x512_S_d0_1 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S128x512 .f32) (main_arg3 : FVec F S512 .f32) (main_arg4 : FVec F S512x256 .f32) (main_arg5 : FVec F S256 .f32) (main_arg6 : FVec F S256x512 .f32) (main_arg7 : FVec F S512 .f32) (main_arg8 : FVec F S512x128 .f32) (main_arg9 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x512 .f32 := Host.absf main_arg2
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x256 .f32 := Host.absf main_arg4
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x512 : Shape := ⟨2, ![128, 512]⟩
abbrev S512 : Shape := ⟨1, ![512]⟩
abbrev S512x256 : Shape := ⟨2, ![512, 256]⟩
abbrev S256 : Shape := ⟨1, ![256]⟩
abbrev S256x512 : Shape := ⟨2, ![256, 512]⟩
abbrev S512x128 : Shape := ⟨2, ![512, 128]⟩
abbrev S128 : Shape := ⟨1, ![128]⟩
abbrev S1x512 : Shape := ⟨2, ![1, 512]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S2000x512 : Shape := ⟨2, ![2000, 512]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x256 : Shape := ⟨2, ![800000, 256]⟩
abbrev S1x128 : Shape := ⟨2, ![1, 128]⟩

abbrev nBuf : Space → Nat
  | .hbm => 39
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x512, .f32⟩
  | .hbm, ⟨3, _⟩ => ⟨S512, .f32⟩
  | .hbm, ⟨4, _⟩ => ⟨S512x256, .f32⟩
  | .hbm, ⟨5, _⟩ => ⟨S256, .f32⟩
  | .hbm, ⟨6, _⟩ => ⟨S256x512, .f32⟩
  | .hbm, ⟨7, _⟩ => ⟨S512, .f32⟩
  | .hbm, ⟨8, _⟩ => ⟨S512x128, .f32⟩
  | .hbm, ⟨9, _⟩ => ⟨S128, .f32⟩
  | .hbm, ⟨10, _⟩ => ⟨S50000x128, .bf16⟩
  | .hbm, ⟨11, _⟩ => ⟨S128x512, .bf16⟩
  | .hbm, ⟨12, _⟩ => ⟨S512x256, .bf16⟩
  | .hbm, ⟨13, _⟩ => ⟨S1x512, .f32⟩
  | .hbm, ⟨14, _⟩ => ⟨S1x256, .f32⟩
  | .hbm, ⟨15, _⟩ => ⟨S50000x256, .f32⟩
  | .hbm, ⟨16, _⟩ => ⟨S1x800000, .i32⟩
  | .hbm, ⟨17, _⟩ => ⟨S800000, .i32⟩
  | .hbm, ⟨18, _⟩ => ⟨S1x800000, .i32⟩
  | .hbm, ⟨19, _⟩ => ⟨S800000, .i32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x256, .f32⟩
  | .hbm, ⟨29, _⟩ => ⟨S_, .f32⟩
  | .hbm, ⟨30, _⟩ => ⟨S50000x256, .f32⟩
  | .hbm, ⟨31, _⟩ => ⟨S800000x1, .i32⟩
  | .hbm, ⟨32, _⟩ => ⟨S50000x256, .f32⟩
  | .hbm, ⟨33, _⟩ => ⟨S50000x256, .bf16⟩
  | .hbm, ⟨34, _⟩ => ⟨S256x512, .bf16⟩
  | .hbm, ⟨35, _⟩ => ⟨S512x128, .bf16⟩
  | .hbm, ⟨36, _⟩ => ⟨S1x512, .f32⟩
  | .hbm, ⟨37, _⟩ => ⟨S1x128, .f32⟩
  | .hbm, ⟨38, _⟩ => ⟨S50000x128, .f32⟩
  | .local _ .vmem, ⟨0, _⟩ => ⟨S2000x128, .bf16⟩
  | .local _ .vmem, ⟨1, _⟩ => ⟨S2000x128, .bf16⟩
  | .local _ .vmem, ⟨2, _⟩ => ⟨S128x512, .bf16⟩
  | .local _ .vmem, ⟨3, _⟩ => ⟨S1x512, .f32⟩
  | .local _ .vmem, ⟨4, _⟩ => ⟨S512x256, .bf16⟩
  | .local _ .vmem, ⟨5, _⟩ => ⟨S1x256, .f32⟩
  | .local _ .vmem, ⟨6, _⟩ => ⟨S2000x256, .f32⟩
  | .local _ .vmem, ⟨7, _⟩ => ⟨S2000x256, .f32⟩
  | .local _ .vmem, ⟨8, _⟩ => ⟨S2000x256, .bf16⟩
  | .local _ .vmem, ⟨9, _⟩ => ⟨S2000x256, .bf16⟩
  | .local _ .vmem, ⟨10, _⟩ => ⟨S256x512, .bf16⟩
  | .local _ .vmem, ⟨11, _⟩ => ⟨S1x512, .f32⟩
  | .local _ .vmem, ⟨12, _⟩ => ⟨S512x128, .bf16⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_v10 : Ref sig .tc := ⟨.hbm, 21, rfl⟩
abbrev main_v11 : Ref sig .tc := ⟨.hbm, 22, rfl⟩
abbrev main_c_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bitsLt_bf16_f32 : FTy.bits .bf16 < FTy.bits .f32
  shapeCasts_S512_S1x512 : S512.ShapeCasts S1x512
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  shapeCasts_S128_S1x128 : S128.ShapeCasts S1x128
  shapeCasts_S2000x256_S2000x256 : S2000x256.ShapeCasts S2000x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  dot_S2000x128_S128x512_S2000x512_1_0_0_1_n_n_wf : DotDims.WF S2000x128 S128x512 S2000x512 [1] [0] [0] [1] [] []
  dot_S2000x512_S512x256_S2000x256_1_0_0_1_n_n_wf : DotDims.WF S2000x512 S512x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x512_S2000x512_1_0_0_1_n_n_wf : DotDims.WF S2000x256 S256x512 S2000x512 [1] [0] [0] [1] [] []
  dot_S2000x512_S512x128_S2000x128_1_0_0_1_n_n_wf : DotDims.WF S2000x512 S512x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .bf16 = 32 ∨ (Rect.block (s := S50000x128) S2000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .bf16 = 32 ∨ (Rect.block (s := S128x512) S128x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .bf16 = 32 ∨ (Rect.block (s := S512x256) S512x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .bf16 = 32 ∨ (Rect.block (s := S50000x256) S2000x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x512.size a ≤ S256x512.size a
  hwx1_1 : ∀ i : grid1.Coords, EltTy.bits .bf16 = 32 ∨ (Rect.block (s := S256x512) S256x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x128.size a ≤ S512x128.size a
  hwx1_3 : ∀ i : grid1.Coords, EltTy.bits .bf16 = 32 ∨ (Rect.block (s := S512x128) S512x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)

variable [Facts₀]

def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x512_S2000x512_1_0_0_1_n_n : DotDims S2000x256 S256x512 S2000x512 where
  lhsContracting := [1]
  rhsContracting := [0]
  lhsNonContracting := [0]
  rhsNonContracting := [1]
  lhsBatch := []
  rhsBatch := []
  wf := dot_S2000x256_S256x512_S2000x512_1_0_0_1_n_n_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf

abbrev win0_0 : Pipeline.Window sig grid0 :=
  Pipeline.Window.ofSpec (Memref.whole main_v0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v20) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S256x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v23) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S512x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x512 : Shape := ⟨2, ![128, 512]⟩
abbrev S512 : Shape := ⟨1, ![512]⟩
abbrev S512x256 : Shape := ⟨2, ![512, 256]⟩
abbrev S256 : Shape := ⟨1, ![256]⟩
abbrev S256x512 : Shape := ⟨2, ![256, 512]⟩
abbrev S512x128 : Shape := ⟨2, ![512, 128]⟩
abbrev S128 : Shape := ⟨1, ![128]⟩
abbrev S50000x512 : Shape := ⟨2, ![50000, 512]⟩
abbrev S1x512 : Shape := ⟨2, ![1, 512]⟩
abbrev S_ : Shape := ⟨0, ![]⟩
abbrev S50000x256 : Shape := ⟨2, ![50000, 256]⟩
abbrev S1x256 : Shape := ⟨2, ![1, 256]⟩
abbrev S1x800000 : Shape := ⟨2, ![1, 800000]⟩
abbrev S800000 : Shape := ⟨1, ![800000]⟩
abbrev S800000x1 : Shape := ⟨2, ![800000, 1]⟩
abbrev S800000x256 : Shape := ⟨2, ![800000, 256]⟩
abbrev S1x128 : Shape := ⟨2, ![1, 128]⟩

abbrev nBuf : Space → Nat
  | .hbm => 49
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x512, .f32⟩
  | .hbm, ⟨3, _⟩ => ⟨S512, .f32⟩
  | .hbm, ⟨4, _⟩ => ⟨S512x256, .f32⟩
  | .hbm, ⟨5, _⟩ => ⟨S256, .f32⟩
  | .hbm, ⟨6, _⟩ => ⟨S256x512, .f32⟩
  | .hbm, ⟨7, _⟩ => ⟨S512, .f32⟩
  | .hbm, ⟨8, _⟩ => ⟨S512x128, .f32⟩
  | .hbm, ⟨9, _⟩ => ⟨S128, .f32⟩
  | .hbm, ⟨10, _⟩ => ⟨S50000x512, .f32⟩
  | .hbm, ⟨11, _⟩ => ⟨S1x512, .f32⟩
  | .hbm, ⟨12, _⟩ => ⟨S50000x512, .f32⟩
  | .hbm, ⟨13, _⟩ => ⟨S50000x512, .f32⟩
  | .hbm, ⟨14, _⟩ => ⟨S_, .f32⟩
  | .hbm, ⟨15, _⟩ => ⟨S50000x512, .f32⟩
  | .hbm, ⟨16, _⟩ => ⟨S50000x512, .f32⟩
  | .hbm, ⟨17, _⟩ => ⟨S50000x256, .f32⟩
  | .hbm, ⟨18, _⟩ => ⟨S1x256, .f32⟩
  | .hbm, ⟨19, _⟩ => ⟨S50000x256, .f32⟩
  | .hbm, ⟨20, _⟩ => ⟨S50000x256, .f32⟩
  | .hbm, ⟨21, _⟩ => ⟨S1x800000, .i32⟩
  | .hbm, ⟨22, _⟩ => ⟨S800000, .i32⟩
  | .hbm, ⟨23, _⟩ => ⟨S1x800000, .i32⟩
  | .hbm, ⟨24, _⟩ => ⟨S800000, .i32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x256, .f32⟩
  | .hbm, ⟨34, _⟩ => ⟨S_, .f32⟩
  | .hbm, ⟨35, _⟩ => ⟨S50000x256, .f32⟩
  | .hbm, ⟨36, _⟩ => ⟨S800000x1, .i32⟩
  | .hbm, ⟨37, _⟩ => ⟨S50000x256, .f32⟩
  | .hbm, ⟨38, _⟩ => ⟨S50000x512, .f32⟩
  | .hbm, ⟨39, _⟩ => ⟨S1x512, .f32⟩
  | .hbm, ⟨40, _⟩ => ⟨S50000x512, .f32⟩
  | .hbm, ⟨41, _⟩ => ⟨S50000x512, .f32⟩
  | .hbm, ⟨42, _⟩ => ⟨S_, .f32⟩
  | .hbm, ⟨43, _⟩ => ⟨S50000x512, .f32⟩
  | .hbm, ⟨44, _⟩ => ⟨S50000x512, .f32⟩
  | .hbm, ⟨45, _⟩ => ⟨S50000x128, .f32⟩
  | .hbm, ⟨46, _⟩ => ⟨S1x128, .f32⟩
  | .hbm, ⟨47, _⟩ => ⟨S50000x128, .f32⟩
  | .hbm, ⟨48, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_call1_cst : Ref sig .tc := ⟨.hbm, 42, rfl⟩
abbrev main_call1_v0 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S_S50000x512 : S_.BroadcastsInDim S50000x512 (![] : Fin 0 → Fin S50000x512.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x128_S128x512_S50000x512_1_0_0_1_n_n_wf : DotDims.WF S50000x128 S128x512 S50000x512 [1] [0] [0] [1] [] []
  dot_S50000x512_S512x256_S50000x256_1_0_0_1_n_n_wf : DotDims.WF S50000x512 S512x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x512_S50000x512_1_0_0_1_n_n_wf : DotDims.WF S50000x256 S256x512 S50000x512 [1] [0] [0] [1] [] []
  dot_S50000x512_S512x128_S50000x128_1_0_0_1_n_n_wf : DotDims.WF S50000x512 S512x128 S50000x128 [1] [0] [0] [1] [] []

variable [Facts₀]

def dot_S50000x128_S128x512_S50000x512_1_0_0_1_n_n : DotDims S50000x128 S128x512 S50000x512 where
  lhsContracting := [1]
  rhsContracting := [0]
  lhsNonContracting := [0]
  rhsNonContracting := [1]
  lhsBatch := []
  rhsBatch := []
  wf := dot_S50000x128_S128x512_S50000x512_1_0_0_1_n_n_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x512_S50000x512_1_0_0_1_n_n : DotDims S50000x256 S256x512 S50000x512 where
  lhsContracting := [1]
  rhsContracting := [0]
  lhsNonContracting := [0]
  rhsNonContracting := [1]
  lhsBatch := []
  rhsBatch := []
  wf := dot_S50000x256_S256x512_S50000x512_1_0_0_1_n_n_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf

class Facts : Prop extends Facts₀ where

variable [Facts]
-- ==== Proof.KernelRun.lean ====
/-
  The idealized kernel's run with its result named.

  @main is four segments: a stretch of host operations, the first perceptron's region, a second stretch of host
  operations (the gather and the scatter-add among them), and the second perceptron's region. The buffer contents
  at each boundary are a fold from the launch memory: `W1` after the first stretch, `W2` after the first region
  (its output array at what its write-backs leave), `W3` after the second stretch, `W4` after the second region.
  Every weakly fair execution terminates, without a fault, with every unscoped buffer at `W4`; read at the result
  buffer this is the second region's output array after its last write-back, and read at an argument it is the
  launch contents. This is the frame's own launch over the same segments, with the result buffer kept in the post
  beside the arguments.
-/
import proofs.«178029_j27376121545349_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents `W4` and the argument arrays as launched. -/
theorem run_result : θ_run defs (onTc (τ := τ) (main (F := F))) ⟨m, fun _ => 0, ρ⟩ (fun r => ∀ c : Dev nD,
      r.2.mem ((c.tc : Thread nD τ).loc main_v25) = W4 m ρ c (Proc.devRef .tc main_v25)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v25 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.Result

end
-- ==== Proof.MlpSpec.lean ====
/-
  The mathematics both programs compute, stated once, with no program in sight.

  A two-layer perceptron with a rectifier between its layers sends a row x (A numbers) to a row of O numbers:
    out[c] = (sum over k < H of  max(sum over j < A of x[j] * W1[j,k] + b1[k], 0) * W2[k,c]) + b2[c].
  `entry` is one such output number from the row x, the first layer's weights and bias, the c-th column of the
  second layer's weights and the c-th entry of its bias; `layerAt` reads the row and the column out of whole arrays
  at explicit coordinates (p, c), and `layer` is the whole [N, O] array, index by index. The rectifier's zero is kept
  as the float word 0x00000000 both programs print, so that it is never evaluated.

  Everything is on the extended reals; sums and products are the extended reals' own, and no law that needs
  finiteness (distributivity, cancellation) is used anywhere below: the two programs apply the same operations in
  the same order, one in row blocks and one on the whole array.
-/
import Idealize.ShloMosaic.PureOps.Ideal
import Idealize.ShloMosaic.Lib.ValueIdx

noncomputable section

open scoped BigOperators

namespace Cert.Mlp

open Idealize.ShloMosaic Idealize.ShloMosaic.ValueIdx

/-- One output number of the perceptron: the rectified first layer of the row `x`, contracted with one column
    `w2` of the second layer's weights, plus that column's bias `b2`. -/
def entry {A H : ℕ} (x : Fin A → EReal) (w1 : Fin A → Fin H → EReal) (b1 : Fin H → EReal) (w2 : Fin H → EReal)
    (b2 : EReal) : EReal :=
  (∑ k : Fin H, max ((∑ j : Fin A, x j * w1 j k) + b1 k) (Ideal.ofBits .f32 0x00000000#32) * w2 k) + b2

/-- Entry (p, c) of the perceptron applied to every row of `X`: row `p` of `X`, column `c` of `W2`. -/
def layerAt {N A H O : ℕ} (X : (⟨2, ![N, A]⟩ : Shape).Idx → EReal) (W1 : (⟨2, ![A, H]⟩ : Shape).Idx → EReal)
    (b1 : Fin H → EReal) (W2 : (⟨2, ![H, O]⟩ : Shape).Idx → EReal) (b2 : Fin O → EReal) (p : Fin N) (c : Fin O) : EReal :=
  entry (fun j => X (ix2 p j)) (fun j k => W1 (ix2 j k)) b1 (fun k => W2 (ix2 k c)) (b2 c)

/-- The perceptron applied to every row of `X`, as one [N, O] array. -/
def layer {N A H O : ℕ} (X : (⟨2, ![N, A]⟩ : Shape).Idx → EReal) (W1 : (⟨2, ![A, H]⟩ : Shape).Idx → EReal)
    (b1 : Fin H → EReal) (W2 : (⟨2, ![H, O]⟩ : Shape).Idx → EReal) (b2 : Fin O → EReal) :
    (⟨2, ![N, O]⟩ : Shape).Idx → EReal :=
  fun i => layerAt X W1 b1 W2 b2 (i 0) (i 1)

theorem layer_ix2 {N A H O : ℕ} (X : (⟨2, ![N, A]⟩ : Shape).Idx → EReal) (W1 : (⟨2, ![A, H]⟩ : Shape).Idx → EReal)
    (b1 : Fin H → EReal) (W2 : (⟨2, ![H, O]⟩ : Shape).Idx → EReal) (b2 : Fin O → EReal) (p : Fin N) (c : Fin O) :
    layer X W1 b1 W2 b2 (ix2 p c) = layerAt X W1 b1 W2 b2 p c := rfl

/-- An entry of the perceptron depends on `X` only through row `p`: two arrays that agree on that row give the
    same entry. -/
theorem layerAt_congr_row {N N' A H O : ℕ} (X : (⟨2, ![N, A]⟩ : Shape).Idx → EReal) (X' : (⟨2, ![N', A]⟩ : Shape).Idx → EReal)
    (W1 : (⟨2, ![A, H]⟩ : Shape).Idx → EReal) (b1 : Fin H → EReal) (W2 : (⟨2, ![H, O]⟩ : Shape).Idx → EReal)
    (b2 : Fin O → EReal) (p : Fin N) (p' : Fin N') (c : Fin O) (h : ∀ j : Fin A, X (ix2 p j) = X' (ix2 p' j)) :
    layerAt X W1 b1 W2 b2 p c = layerAt X' W1 b1 W2 b2 p' c := by
  unfold layerAt
  exact congrArg (fun f => entry f (fun j k => W1 (ix2 j k)) b1 (fun k => W2 (ix2 k c)) (b2 c)) (funext h)

end Cert.Mlp

end
-- ==== Proof.LibMatmulPlain.lean ====
/-
  A plain matrix product read at one entry, on the extended reals.

  For dimension numbers that contract the left operand's second axis with the right operand's first
  (an [M, K] array times a [K, N] array), started from a zero accumulator, entry (p, c) of the product is
  the sum over k of lhs (p, k) * rhs (k, c). The four coordinate facts about the record's operand indices
  are taken as hypotheses, so the lemma serves every record of that form whatever the extents.
-/
import Idealize.ShloMosaic.PureOps.Ideal.Laws
import Idealize.ShloMosaic.Lib.ValueIdx

noncomputable section

open scoped BigOperators

namespace Idealize.ShloMosaic.MatmulPlain

open Idealize.ShloMosaic Idealize.ShloMosaic.ValueIdx

/-- Entry (p, c) of an [M, K] x [K, N] product into a zero accumulator is the sum over the one contracted
    axis of the products of row p of the left operand with column c of the right one. `hr`, `hs`: the record
    contracts one axis, of extent K; `hl0` ... `hr1`: the record's operand indices at an output index and a
    contraction position are (row, position) and (position, column). -/
theorem matmul_zero_apply {M K N : Nat} {φ₁ φ₂ : FTy}
    (D : DotDims ⟨2, ![M, K]⟩ ⟨2, ![K, N]⟩ ⟨2, ![M, N]⟩) (prec : Option ContractPrecision)
    (hr : D.contr.rank = 1) (hs : D.contr.size ⟨0, by omega⟩ = K)
    (hl0 : ∀ (j : (⟨2, ![M, N]⟩ : Shape).Idx) (q : D.contr.Idx), (D.lhsIdx j q (0 : Fin 2)).val = (j 0).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (q ⟨0, by omega⟩).val)
    (hr1 : ∀ (j : (⟨2, ![M, N]⟩ : Shape).Idx) (q : D.contr.Idx), (D.rhsIdx j q (1 : Fin 2)).val = (j 1).val)
    (lhs : FVec Ideal ⟨2, ![M, K]⟩ φ₁) (rhs : FVec Ideal ⟨2, ![K, N]⟩ φ₂) (p : Fin M) (c : Fin N) :
    FloatOps.matmul D prec lhs rhs (constant (F := Ideal) ⟨2, ![M, N]⟩ .f32 0x00000000#32) (ix2 p c)
      = ∑ k : Fin K, lhs (ix2 p k) * rhs (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Idealize.ShloMosaic.MatmulPlain

end
-- ==== Proof.LibMlpBody.lean ====
/-
  A two-layer perceptron body read at one entry, on the extended reals.

  The body takes a block of N rows, multiplies it by the first layer's [A, H] weights into a zero accumulator, adds
  the bias (a [1, H] row broadcast over the N rows), takes the maximum with the zero word, changes the float format
  (the identity on the extended reals), multiplies by the second layer's [H, O] weights into a zero accumulator and
  adds the second bias row. Its entry (r, q) is

      (sum over k < H of  max(sum over j < A of x[r,j] * W1[j,k] + b1[0,k], 0) * W2[k,q]) + b2[0,q],

  which is `Cert.Mlp.layerAt` of the block, the weights and the bias rows. The dimension-number records of the two
  products are arbitrary records of the plain form (left axis 1 against right axis 0, no batch axis), each given by
  its four operand-coordinate facts; the shape casts are casts of a shape to itself and the broadcasts are of one
  row over many, so the lemma serves a body of any extents.
-/
import Idealize.ShloMosaic.PureOps.Ideal.Laws
import Idealize.ShloMosaic.Lib.ValueIdx
import Idealize.ShloMosaic.Lib.ValueLayout
import Idealize.ShloMosaic.Lib.Pipeline.Value
import proofs.«178029_j27376121545349_1_alg».proof.Proof.MlpSpec
import proofs.«178029_j27376121545349_1_alg».proof.Proof.LibMatmulPlain

noncomputable section

open scoped BigOperators

namespace Cert.LibMlpBody

open Idealize.ShloMosaic Idealize.ShloMosaic.ValueIdx

/-- Entry (r, q) of the perceptron body of a block `x0` (N rows), weights `x1`, `x3` and bias rows `x2`, `x4`. -/
theorem body_apply {N A H O : ℕ}
    (D1 : DotDims ⟨2, ![N, A]⟩ ⟨2, ![A, H]⟩ ⟨2, ![N, H]⟩) (D2 : DotDims ⟨2, ![N, H]⟩ ⟨2, ![H, O]⟩ ⟨2, ![N, O]⟩)
    (h1r : D1.contr.rank = 1) (h1s : D1.contr.size ⟨0, by omega⟩ = A)
    (h1l0 : ∀ (j : (⟨2, ![N, H]⟩ : Shape).Idx) (q : D1.contr.Idx), (D1.lhsIdx j q (0 : Fin 2)).val = (j 0).val)
    (h1l1 : ∀ (j : (⟨2, ![N, H]⟩ : Shape).Idx) (q : D1.contr.Idx), (D1.lhsIdx j q (1 : Fin 2)).val = (q ⟨0, by omega⟩).val)
    (h1r0 : ∀ (j : (⟨2, ![N, H]⟩ : Shape).Idx) (q : D1.contr.Idx), (D1.rhsIdx j q (0 : Fin 2)).val = (q ⟨0, by omega⟩).val)
    (h1r1 : ∀ (j : (⟨2, ![N, H]⟩ : Shape).Idx) (q : D1.contr.Idx), (D1.rhsIdx j q (1 : Fin 2)).val = (j 1).val)
    (h2r : D2.contr.rank = 1) (h2s : D2.contr.size ⟨0, by omega⟩ = H)
    (h2l0 : ∀ (j : (⟨2, ![N, O]⟩ : Shape).Idx) (q : D2.contr.Idx), (D2.lhsIdx j q (0 : Fin 2)).val = (j 0).val)
    (h2l1 : ∀ (j : (⟨2, ![N, O]⟩ : Shape).Idx) (q : D2.contr.Idx), (D2.lhsIdx j q (1 : Fin 2)).val = (q ⟨0, by omega⟩).val)
    (h2r0 : ∀ (j : (⟨2, ![N, O]⟩ : Shape).Idx) (q : D2.contr.Idx), (D2.rhsIdx j q (0 : Fin 2)).val = (q ⟨0, by omega⟩).val)
    (h2r1 : ∀ (j : (⟨2, ![N, O]⟩ : Shape).Idx) (q : D2.contr.Idx), (D2.rhsIdx j q (1 : Fin 2)).val = (j 1).val)
    (c0 : (⟨2, ![N, A]⟩ : Shape).ShapeCasts ⟨2, ![N, A]⟩) (c1 : (⟨2, ![A, H]⟩ : Shape).ShapeCasts ⟨2, ![A, H]⟩)
    (c2 : (⟨2, ![1, H]⟩ : Shape).ShapeCasts ⟨2, ![1, H]⟩) (c3 : (⟨2, ![H, O]⟩ : Shape).ShapeCasts ⟨2, ![H, O]⟩)
    (c4 : (⟨2, ![1, O]⟩ : Shape).ShapeCasts ⟨2, ![1, O]⟩)
    (bH : (⟨2, ![1, H]⟩ : Shape).Broadcasts ⟨2, ![N, H]⟩) (bO : (⟨2, ![1, O]⟩ : Shape).Broadcasts ⟨2, ![N, O]⟩)
    (hb : FTy.bf16.bits < FTy.f32.bits)
    (x0 : FVec Ideal ⟨2, ![N, A]⟩ .bf16) (x1 : FVec Ideal ⟨2, ![A, H]⟩ .bf16) (x2 : FVec Ideal ⟨2, ![1, H]⟩ .f32)
    (x3 : FVec Ideal ⟨2, ![H, O]⟩ .bf16) (x4 : FVec Ideal ⟨2, ![1, O]⟩ .f32) (r : Fin N) (q : Fin O) :
    addf (matmul D2 none
          (truncf .bf16 (maximumf (addf (matmul D1 none (shapeCast ⟨2, ![N, A]⟩ x0 c0) (shapeCast ⟨2, ![A, H]⟩ x1 c1)
                (constant (F := Ideal) ⟨2, ![N, H]⟩ .f32 0x00000000#32))
              (broadcastTo ⟨2, ![N, H]⟩ (shapeCast ⟨2, ![1, H]⟩ x2 c2) bH))
            (broadcast ⟨2, ![N, H]⟩ (Scalar.ofBits (F := Ideal) .f32 0x00000000#32))) hb)
          (shapeCast ⟨2, ![H, O]⟩ x3 c3) (constant (F := Ideal) ⟨2, ![N, O]⟩ .f32 0x00000000#32))
        (broadcastTo ⟨2, ![N, O]⟩ (shapeCast ⟨2, ![1, O]⟩ x4 c4) bO) (ix2 r q)
      = Cert.Mlp.layerAt x0 x1 (fun k => x2 (ix2 (0 : Fin 1) k)) x3 (fun k => x4 (ix2 (0 : Fin 1) k)) r q := by
  unfold Cert.Mlp.layerAt Cert.Mlp.entry
  rw [shapeCast_self, shapeCast_self, shapeCast_self, shapeCast_self, shapeCast_self]
  -- the second bias row, broadcast: entry (r, q) reads the row at q
  refine (congrArg₂ (· + ·)
    (MatmulPlain.matmul_zero_apply D2 none h2r h2s h2l0 h2l1 h2r0 h2r1 _ x3 r q)
    (broadcastTo_1b_ab_apply x4 bO r q)).trans ?_
  refine congrArg (· + x4 (ix2 (0 : Fin 1) q)) ?_
  refine Finset.sum_congr rfl fun k _ => ?_
  refine congrArg (· * x3 (ix2 k q)) ?_
  -- the rectified first layer at (r, k): the format change is the identity, the maximum and the sum are entrywise
  refine (congrArg₂ (fun a b => max (a + b) (Ideal.ofBits .f32 0x00000000#32))
    (MatmulPlain.matmul_zero_apply D1 none h1r h1s h1l0 h1l1 h1r0 h1r1 x0 x1 r k)
    (broadcastTo_1b_ab_apply x2 bH r k)).trans ?_
  rfl

end Cert.LibMlpBody

end
-- ==== Proof.KernelBody.lean ====
/-
  The two kernel bodies read at an entry.

  Each pallas_call's body is the perceptron body of Cert.LibMlpBody on a block of 2000 rows: the first call's on
  [2000, 128] rows with weights [128, 512] and [512, 256], the second call's on [2000, 256] rows with weights
  [256, 512] and [512, 128]. The stored value at (r, q) is therefore the perceptron's entry (r, q) of the block,
  with the bias rows read at row 0. What is proved here besides is only that each matmul's dimension numbers are
  of the plain form: the left operand is read at (row, position), the right one at (position, column).
-/
import proofs.«178029_j27376121545349_1_alg».proof.Proof.Gen.KernelIdeal.Skeleton
import proofs.«178029_j27376121545349_1_alg».proof.Proof.LibMlpBody

noncomputable section

namespace Cert.KernelIdeal.Body

open Cert.KernelIdeal Cert.KernelIdeal.Gen Idealize.ShloMosaic Idealize.ShloMosaic.ValueIdx

/-! ## The four products' operand coordinates -/

theorem a1_l0 (j : S2000x512.Idx) (q : dot_S2000x128_S128x512_S2000x512_1_0_0_1_n_n.contr.Idx) : (dot_S2000x128_S128x512_S2000x512_1_0_0_1_n_n.lhsIdx j q (0 : Fin 2)).val = (j 0).val := by
  unfold DotDims.lhsIdx
  rw [dif_neg (show ¬(0 : Fin S2000x128.rank) ∈ dot_S2000x128_S128x512_S2000x512_1_0_0_1_n_n.lhsBatch by decide), dif_pos (show (0 : Fin S2000x128.rank) ∈ dot_S2000x128_S128x512_S2000x512_1_0_0_1_n_n.lhsNonContracting by decide)]
  rfl
theorem a1_l1 (j : S2000x512.Idx) (q : dot_S2000x128_S128x512_S2000x512_1_0_0_1_n_n.contr.Idx) : (dot_S2000x128_S128x512_S2000x512_1_0_0_1_n_n.lhsIdx j q (1 : Fin 2)).val = (q ⟨0, by decide⟩).val :=
  dot_S2000x128_S128x512_S2000x512_1_0_0_1_n_n.lhsIdx_val_of_single rfl j q
theorem a1_r0 (j : S2000x512.Idx) (q : dot_S2000x128_S128x512_S2000x512_1_0_0_1_n_n.contr.Idx) : (dot_S2000x128_S128x512_S2000x512_1_0_0_1_n_n.rhsIdx j q (0 : Fin 2)).val = (q ⟨0, by decide⟩).val :=
  dot_S2000x128_S128x512_S2000x512_1_0_0_1_n_n.rhsIdx_val_of_single rfl j q
theorem a1_r1 (j : S2000x512.Idx) (q : dot_S2000x128_S128x512_S2000x512_1_0_0_1_n_n.contr.Idx) : (dot_S2000x128_S128x512_S2000x512_1_0_0_1_n_n.rhsIdx j q (1 : Fin 2)).val = (j 1).val := by
  unfold DotDims.rhsIdx
  rw [dif_neg (show ¬(1 : Fin S128x512.rank) ∈ dot_S2000x128_S128x512_S2000x512_1_0_0_1_n_n.rhsBatch by decide), dif_pos (show (1 : Fin S128x512.rank) ∈ dot_S2000x128_S128x512_S2000x512_1_0_0_1_n_n.rhsNonContracting by decide)]
  rfl

theorem a2_l0 (j : S2000x256.Idx) (q : dot_S2000x512_S512x256_S2000x256_1_0_0_1_n_n.contr.Idx) : (dot_S2000x512_S512x256_S2000x256_1_0_0_1_n_n.lhsIdx j q (0 : Fin 2)).val = (j 0).val := by
  unfold DotDims.lhsIdx
  rw [dif_neg (show ¬(0 : Fin S2000x512.rank) ∈ dot_S2000x512_S512x256_S2000x256_1_0_0_1_n_n.lhsBatch by decide), dif_pos (show (0 : Fin S2000x512.rank) ∈ dot_S2000x512_S512x256_S2000x256_1_0_0_1_n_n.lhsNonContracting by decide)]
  rfl
theorem a2_l1 (j : S2000x256.Idx) (q : dot_S2000x512_S512x256_S2000x256_1_0_0_1_n_n.contr.Idx) : (dot_S2000x512_S512x256_S2000x256_1_0_0_1_n_n.lhsIdx j q (1 : Fin 2)).val = (q ⟨0, by decide⟩).val :=
  dot_S2000x512_S512x256_S2000x256_1_0_0_1_n_n.lhsIdx_val_of_single rfl j q
theorem a2_r0 (j : S2000x256.Idx) (q : dot_S2000x512_S512x256_S2000x256_1_0_0_1_n_n.contr.Idx) : (dot_S2000x512_S512x256_S2000x256_1_0_0_1_n_n.rhsIdx j q (0 : Fin 2)).val = (q ⟨0, by decide⟩).val :=
  dot_S2000x512_S512x256_S2000x256_1_0_0_1_n_n.rhsIdx_val_of_single rfl j q
theorem a2_r1 (j : S2000x256.Idx) (q : dot_S2000x512_S512x256_S2000x256_1_0_0_1_n_n.contr.Idx) : (dot_S2000x512_S512x256_S2000x256_1_0_0_1_n_n.rhsIdx j q (1 : Fin 2)).val = (j 1).val := by
  unfold DotDims.rhsIdx
  rw [dif_neg (show ¬(1 : Fin S512x256.rank) ∈ dot_S2000x512_S512x256_S2000x256_1_0_0_1_n_n.rhsBatch by decide), dif_pos (show (1 : Fin S512x256.rank) ∈ dot_S2000x512_S512x256_S2000x256_1_0_0_1_n_n.rhsNonContracting by decide)]
  rfl

theorem b1_l0 (j : S2000x512.Idx) (q : dot_S2000x256_S256x512_S2000x512_1_0_0_1_n_n.contr.Idx) : (dot_S2000x256_S256x512_S2000x512_1_0_0_1_n_n.lhsIdx j q (0 : Fin 2)).val = (j 0).val := by
  unfold DotDims.lhsIdx
  rw [dif_neg (show ¬(0 : Fin S2000x256.rank) ∈ dot_S2000x256_S256x512_S2000x512_1_0_0_1_n_n.lhsBatch by decide), dif_pos (show (0 : Fin S2000x256.rank) ∈ dot_S2000x256_S256x512_S2000x512_1_0_0_1_n_n.lhsNonContracting by decide)]
  rfl
theorem b1_l1 (j : S2000x512.Idx) (q : dot_S2000x256_S256x512_S2000x512_1_0_0_1_n_n.contr.Idx) : (dot_S2000x256_S256x512_S2000x512_1_0_0_1_n_n.lhsIdx j q (1 : Fin 2)).val = (q ⟨0, by decide⟩).val :=
  dot_S2000x256_S256x512_S2000x512_1_0_0_1_n_n.lhsIdx_val_of_single rfl j q
theorem b1_r0 (j : S2000x512.Idx) (q : dot_S2000x256_S256x512_S2000x512_1_0_0_1_n_n.contr.Idx) : (dot_S2000x256_S256x512_S2000x512_1_0_0_1_n_n.rhsIdx j q (0 : Fin 2)).val = (q ⟨0, by decide⟩).val :=
  dot_S2000x256_S256x512_S2000x512_1_0_0_1_n_n.rhsIdx_val_of_single rfl j q
theorem b1_r1 (j : S2000x512.Idx) (q : dot_S2000x256_S256x512_S2000x512_1_0_0_1_n_n.contr.Idx) : (dot_S2000x256_S256x512_S2000x512_1_0_0_1_n_n.rhsIdx j q (1 : Fin 2)).val = (j 1).val := by
  unfold DotDims.rhsIdx
  rw [dif_neg (show ¬(1 : Fin S256x512.rank) ∈ dot_S2000x256_S256x512_S2000x512_1_0_0_1_n_n.rhsBatch by decide), dif_pos (show (1 : Fin S256x512.rank) ∈ dot_S2000x256_S256x512_S2000x512_1_0_0_1_n_n.rhsNonContracting by decide)]
  rfl

theorem b2_l0 (j : S2000x128.Idx) (q : dot_S2000x512_S512x128_S2000x128_1_0_0_1_n_n.contr.Idx) : (dot_S2000x512_S512x128_S2000x128_1_0_0_1_n_n.lhsIdx j q (0 : Fin 2)).val = (j 0).val := by
  unfold DotDims.lhsIdx
  rw [dif_neg (show ¬(0 : Fin S2000x512.rank) ∈ dot_S2000x512_S512x128_S2000x128_1_0_0_1_n_n.lhsBatch by decide), dif_pos (show (0 : Fin S2000x512.rank) ∈ dot_S2000x512_S512x128_S2000x128_1_0_0_1_n_n.lhsNonContracting by decide)]
  rfl
theorem b2_l1 (j : S2000x128.Idx) (q : dot_S2000x512_S512x128_S2000x128_1_0_0_1_n_n.contr.Idx) : (dot_S2000x512_S512x128_S2000x128_1_0_0_1_n_n.lhsIdx j q (1 : Fin 2)).val = (q ⟨0, by decide⟩).val :=
  dot_S2000x512_S512x128_S2000x128_1_0_0_1_n_n.lhsIdx_val_of_single rfl j q
theorem b2_r0 (j : S2000x128.Idx) (q : dot_S2000x512_S512x128_S2000x128_1_0_0_1_n_n.contr.Idx) : (dot_S2000x512_S512x128_S2000x128_1_0_0_1_n_n.rhsIdx j q (0 : Fin 2)).val = (q ⟨0, by decide⟩).val :=
  dot_S2000x512_S512x128_S2000x128_1_0_0_1_n_n.rhsIdx_val_of_single rfl j q
theorem b2_r1 (j : S2000x128.Idx) (q : dot_S2000x512_S512x128_S2000x128_1_0_0_1_n_n.contr.Idx) : (dot_S2000x512_S512x128_S2000x128_1_0_0_1_n_n.rhsIdx j q (1 : Fin 2)).val = (j 1).val := by
  unfold DotDims.rhsIdx
  rw [dif_neg (show ¬(1 : Fin S512x128.rank) ∈ dot_S2000x512_S512x128_S2000x128_1_0_0_1_n_n.rhsBatch by decide), dif_pos (show (1 : Fin S512x128.rank) ∈ dot_S2000x512_S512x128_S2000x128_1_0_0_1_n_n.rhsNonContracting by decide)]
  rfl

/-! ## The stored values -/

/-- The first call's stored value at (r, q): the perceptron's entry of the [2000, 128] block. -/
theorem pay0_apply (x0 : FVec Ideal S2000x128 .bf16) (x1 : FVec Ideal S128x512 .bf16) (x2 : FVec Ideal S1x512 .f32)
    (x3 : FVec Ideal S512x256 .bf16) (x4 : FVec Ideal S1x256 .f32) (r : Fin 2000) (q : Fin 256) :
    k0_pay1 (F := Ideal) x0 x1 x2 x3 x4 (ix2 r q)
      = Cert.Mlp.layerAt x0 x1 (fun k => x2 (ix2 (0 : Fin 1) k)) x3 (fun k => x4 (ix2 (0 : Fin 1) k)) r q := by
  unfold k0_pay1
  exact Cert.LibMlpBody.body_apply dot_S2000x128_S128x512_S2000x512_1_0_0_1_n_n dot_S2000x512_S512x256_S2000x256_1_0_0_1_n_n
    rfl rfl a1_l0 a1_l1 a1_r0 a1_r1 rfl rfl a2_l0 a2_l1 a2_r0 a2_r1 _ _ _ _ _ _ _ _ x0 x1 x2 x3 x4 r q

/-- The second call's stored value at (r, q): the perceptron's entry of the [2000, 256] block. -/
theorem pay1_apply (x0 : FVec Ideal S2000x256 .bf16) (x1 : FVec Ideal S256x512 .bf16) (x2 : FVec Ideal S1x512 .f32)
    (x3 : FVec Ideal S512x128 .bf16) (x4 : FVec Ideal S1x128 .f32) (r : Fin 2000) (q : Fin 128) :
    k1_pay1 (F := Ideal) x0 x1 x2 x3 x4 (ix2 r q)
      = Cert.Mlp.layerAt x0 x1 (fun k => x2 (ix2 (0 : Fin 1) k)) x3 (fun k => x4 (ix2 (0 : Fin 1) k)) r q := by
  unfold k1_pay1
  exact Cert.LibMlpBody.body_apply dot_S2000x256_S256x512_S2000x512_1_0_0_1_n_n dot_S2000x512_S512x128_S2000x128_1_0_0_1_n_n
    rfl rfl b1_l0 b1_l1 b1_r0 b1_r1 rfl rfl b2_l0 b2_l1 b2_r0 b2_r1 _ _ _ _ _ _ _ _ x0 x1 x2 x3 x4 r q

end Cert.KernelIdeal.Body

end
-- ==== Proof.KernelFinal0.lean ====
/-
  From the first perceptron's row blocks to its whole output array.

  The call has a grid of 25 points. At point t its input window 0 holds rows 2000 t … 2000 t + 1999 of the
  [50000, 128] input; its weight and bias windows hold their whole arrays at every point (their block index is 0);
  its output window's block is rows 2000 t … 2000 t + 1999 of the [50000, 256] output, written back at every point.
  An entry of the perceptron depends on the input only through its own row, so what point t writes back is block t
  of ONE whole-array function, `G`: the perceptron applied to every row of the input as the region finds it. The 25
  blocks tile the output (row r lies in block r / 2000), so the output array ends holding `G`.

  Everything is stated at a parameter `V`, the buffer contents when the region is entered.
-/
import proofs.«178029_j27376121545349_1_alg».proof.Proof.Gen.KernelIdeal.Frame
import proofs.«178029_j27376121545349_1_alg».proof.Proof.KernelBody
import Idealize.ShloMosaic.Lib.Pipeline.Value

set_option maxRecDepth 16384

noncomputable section

namespace Cert.KernelIdeal.Final0

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The perceptron applied to every row of the input array, with the weights and the bias rows as the region finds
    them: what the output array ends holding. -/
def G (c : Dev nD) : S50000x256.Idx → EReal :=
  Cert.Mlp.layer (V c main_v0 : S50000x128.Idx → EReal) (V c main_v1 : S128x512.Idx → EReal)
    (fun k => (V c main_v3 : S1x512.Idx → EReal) (ix2 (0 : Fin 1) k)) (V c main_v2 : S512x256.Idx → EReal)
    (fun k => (V c main_v4 : S1x256.Idx → EReal) (ix2 (0 : Fin 1) k))

/-- The printed index maps, decided once over the 25 grid points: the input's row block moves with the output's,
    every other block index is 0, and the output's row block index is at most 24. -/
theorem idx_facts : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 24 ∧ win0_5.index t (1 : Fin 2) = 0 :=
  (by decide +kernel : ∀ t : Fin grid0.N, _)

/-- Every row block of the output is some point's. -/
theorem idx_onto : ∀ q0 : Fin 25, ∃ t : Fin cfg0.N, win0_5.index t = ![q0.val, 0] :=
  (by decide +kernel : ∀ q0 : Fin 25, ∃ t : Fin grid0.N, win0_5.index t = ![q0.val, 0])

/-! ## The input windows' blocks -/

/-- Row r of the input window's block at point t is row (2000 · block index + r) of the input array. -/
theorem blk_x (c : Dev nD) (t : Fin cfg0.N) (r : Fin 2000) (j : Fin 128) (p : Fin 50000)
    (hp : p.val = win0_5.index t (0 : Fin 2) * 2000 + r.val) :
    (iblk0 V c 0 t : S2000x128.Idx → EReal) (ix2 r j) = (V c main_v0 : S50000x128.Idx → EReal) (ix2 p j) := by
  obtain ⟨e0, e1, -⟩ := idx_facts t
  show (V c main_v0 : S50000x128.Idx → EReal) (((cfg0.win 0).blk t).view.emb (ix2 r j)) = _
  refine congrArg _ ?_
  funext a; apply Fin.ext
  match a with
  | ⟨0, _⟩ => show win0_0.index t (0 : Fin 2) * 2000 + 1 * r.val = p.val; omega
  | ⟨1, _⟩ => show win0_0.index t (1 : Fin 2) * 128 + 1 * j.val = j.val; omega

/-- The first layer's weights: the window's block is the whole array, at every point. -/
theorem blk_w1 (c : Dev nD) (t : Fin cfg0.N) : (iblk0 V c 1 t : S128x512.Idx → EReal) = (V c main_v1 : S128x512.Idx → EReal) := by
  obtain ⟨-, -, e2, e3, -⟩ := idx_facts t
  funext y
  show (V c main_v1 : S128x512.Idx → EReal) (((cfg0.win 1).blk t).view.emb y) = _
  refine congrArg _ ?_
  funext a; apply Fin.ext
  match a with
  | ⟨0, _⟩ => show win0_1.index t (0 : Fin 2) * 128 + 1 * (y 0).val = (y 0).val; omega
  | ⟨1, _⟩ => show win0_1.index t (1 : Fin 2) * 512 + 1 * (y 1).val = (y 1).val; omega

/-- The first bias row: the whole [1, 512] array. -/
theorem blk_b1 (c : Dev nD) (t : Fin cfg0.N) : (iblk0 V c 2 t : S1x512.Idx → EReal) = (V c main_v3 : S1x512.Idx → EReal) := by
  obtain ⟨-, -, -, -, e4, e5, -⟩ := idx_facts t
  funext y
  show (V c main_v3 : S1x512.Idx → EReal) (((cfg0.win 2).blk t).view.emb y) = _
  refine congrArg _ ?_
  funext a; apply Fin.ext
  match a with
  | ⟨0, _⟩ => show win0_2.index t (0 : Fin 2) * 1 + 1 * (y 0).val = (y 0).val; omega
  | ⟨1, _⟩ => show win0_2.index t (1 : Fin 2) * 512 + 1 * (y 1).val = (y 1).val; omega

/-- The second layer's weights: the whole array. -/
theorem blk_w2 (c : Dev nD) (t : Fin cfg0.N) : (iblk0 V c 3 t : S512x256.Idx → EReal) = (V c main_v2 : S512x256.Idx → EReal) := by
  obtain ⟨-, -, -, -, -, -, e6, e7, -⟩ := idx_facts t
  funext y
  show (V c main_v2 : S512x256.Idx → EReal) (((cfg0.win 3).blk t).view.emb y) = _
  refine congrArg _ ?_
  funext a; apply Fin.ext
  match a with
  | ⟨0, _⟩ => show win0_3.index t (0 : Fin 2) * 512 + 1 * (y 0).val = (y 0).val; omega
  | ⟨1, _⟩ => show win0_3.index t (1 : Fin 2) * 256 + 1 * (y 1).val = (y 1).val; omega

/-- The second bias row: the whole [1, 256] array. -/
theorem blk_b2 (c : Dev nD) (t : Fin cfg0.N) : (iblk0 V c 4 t : S1x256.Idx → EReal) = (V c main_v4 : S1x256.Idx → EReal) := by
  obtain ⟨-, -, -, -, -, -, -, -, e8, e9, -⟩ := idx_facts t
  funext y
  show (V c main_v4 : S1x256.Idx → EReal) (((cfg0.win 4).blk t).view.emb y) = _
  refine congrArg _ ?_
  funext a; apply Fin.ext
  match a with
  | ⟨0, _⟩ => show win0_4.index t (0 : Fin 2) * 1 + 1 * (y 0).val = (y 0).val; omega
  | ⟨1, _⟩ => show win0_4.index t (1 : Fin 2) * 256 + 1 * (y 1).val = (y 1).val; omega

/-! ## What a point writes back, and the cover -/

/-- WHAT POINT t WRITES BACK is block t of `G`: entry (r, q) of the stored block is the perceptron's entry of row r of
    the input block, which is row (2000 · block index + r) of the input array. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x512) hz, View.ld_unit_zero (S := S1x512) hz,
    View.ld_unit_zero (S := S512x256) hz, View.ld_unit_zero (S := S1x256) hz]
  obtain ⟨-, -, -, -, -, -, -, -, -, -, e10, e11⟩ := idx_facts t
  funext y
  obtain ⟨r, q, rfl⟩ : ∃ (r : Fin 2000) (q : Fin 256), y = ix2 r q := ⟨y 0, y 1, eq_ix2 y⟩
  refine (Cert.KernelIdeal.Body.pay0_apply _ _ _ _ _ r q).trans ?_
  rw [blk_w1 V c t, blk_b1 V c t, blk_w2 V c t, blk_b2 V c t]
  have hr : r.val < 2000 := r.isLt
  have hemb : ((cfg0.win 5).blk t).view.emb (ix2 r q)
      = (ix2 (⟨win0_5.index t (0 : Fin 2) * 2000 + r.val, by omega⟩ : Fin 50000) q : S50000x256.Idx) := by
    funext a; apply Fin.ext
    match a with
    | ⟨0, _⟩ => show win0_5.index t (0 : Fin 2) * 2000 + 1 * r.val = win0_5.index t (0 : Fin 2) * 2000 + r.val; omega
    | ⟨1, _⟩ => show win0_5.index t (1 : Fin 2) * 256 + 1 * q.val = q.val; omega
  show _ = G V c (((cfg0.win 5).blk t).view.emb (ix2 r q))
  rw [hemb]
  unfold G
  rw [Cert.Mlp.layer_ix2]
  exact Cert.Mlp.layerAt_congr_row _ _ _ _ _ _ r _ q (fun j => blk_x V c t r j _ rfl)

/-- An index of the output array is in point t's block iff each coordinate is in the block's range on its axis. -/
theorem mem_blk (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v5).slice (win0_5.rect t)).set ↔ _
  rw [View.set_slice_whole, Rect.mem_set_unit]
  exact Iff.rfl

/-- The 25 row blocks tile the output: row r lies in block r / 2000. -/
theorem cover (i : S50000x256.Idx) : ∃ t : Fin cfg0.N, (cfg0.win 5).flush t = true ∧ i ∈ ((cfg0.win 5).blk t).view.set := by
  have hi0 : (i 0).val < 50000 := (i 0).isLt
  have hi1 : (i 1).val < 256 := (i 1).isLt
  obtain ⟨t, ht⟩ := idx_onto ⟨(i 0).val / 2000, by omega⟩
  have q0 : win0_5.index t (0 : Fin 2) = (i 0).val / 2000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 256 ≤ (i 1).val ∧ (i 1).val < win0_5.index t (1 : Fin 2) * 256 + 256; omega

/-- THE OUTPUT ARRAY after the region: the perceptron of the input array as the region finds it. -/
theorem final (c : Dev nD) : (dat0 V c).arrAt 5 cfg0.N = G V c :=
  (dat0 V c).arrAt_eq_of_cover 5 (G V c) (fun t _ => flushed_eq V c t) cover

end Cert.KernelIdeal.Final0

end
-- ==== Proof.KernelFinal1.lean ====
/-
  From the second perceptron's row blocks to its whole output array.

  The call has a grid of 25 points. At point t its input window 0 holds rows 2000 t … 2000 t + 1999 of the
  [50000, 256] input; its weight and bias windows hold their whole arrays at every point (their block index is 0);
  its output window's block is rows 2000 t … 2000 t + 1999 of the [50000, 128] output, written back at every point.
  An entry of the perceptron depends on the input only through its own row, so what point t writes back is block t
  of ONE whole-array function, `G`: the perceptron applied to every row of the input as the region finds it. The 25
  blocks tile the output (row r lies in block r / 2000), so the output array ends holding `G`.

  Everything is stated at a parameter `V`, the buffer contents when the region is entered.
-/
import proofs.«178029_j27376121545349_1_alg».proof.Proof.Gen.KernelIdeal.Frame
import proofs.«178029_j27376121545349_1_alg».proof.Proof.KernelBody
import Idealize.ShloMosaic.Lib.Pipeline.Value

set_option maxRecDepth 16384

noncomputable section

namespace Cert.KernelIdeal.Final1

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The perceptron applied to every row of the input array, with the weights and the bias rows as the region finds
    them: what the output array ends holding. -/
def G (c : Dev nD) : S50000x128.Idx → EReal :=
  Cert.Mlp.layer (V c main_v20 : S50000x256.Idx → EReal) (V c main_v21 : S256x512.Idx → EReal)
    (fun k => (V c main_v23 : S1x512.Idx → EReal) (ix2 (0 : Fin 1) k)) (V c main_v22 : S512x128.Idx → EReal)
    (fun k => (V c main_v24 : S1x128.Idx → EReal) (ix2 (0 : Fin 1) k))

/-- The printed index maps, decided once over the 25 grid points: the input's row block moves with the output's,
    every other block index is 0, and the output's row block index is at most 24. -/
theorem idx_facts : ∀ t : Fin cfg1.N,
    win1_0.index t (0 : Fin 2) = win1_5.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) ≤ 24 ∧ win1_5.index t (1 : Fin 2) = 0 :=
  (by decide +kernel : ∀ t : Fin grid1.N, _)

/-- Every row block of the output is some point's. -/
theorem idx_onto : ∀ q0 : Fin 25, ∃ t : Fin cfg1.N, win1_5.index t = ![q0.val, 0] :=
  (by decide +kernel : ∀ q0 : Fin 25, ∃ t : Fin grid1.N, win1_5.index t = ![q0.val, 0])

/-! ## The input windows' blocks -/

/-- Row r of the input window's block at point t is row (2000 · block index + r) of the input array. -/
theorem blk_x (c : Dev nD) (t : Fin cfg1.N) (r : Fin 2000) (j : Fin 256) (p : Fin 50000)
    (hp : p.val = win1_5.index t (0 : Fin 2) * 2000 + r.val) :
    (iblk1 V c 0 t : S2000x256.Idx → EReal) (ix2 r j) = (V c main_v20 : S50000x256.Idx → EReal) (ix2 p j) := by
  obtain ⟨e0, e1, -⟩ := idx_facts t
  show (V c main_v20 : S50000x256.Idx → EReal) (((cfg1.win 0).blk t).view.emb (ix2 r j)) = _
  refine congrArg _ ?_
  funext a; apply Fin.ext
  match a with
  | ⟨0, _⟩ => show win1_0.index t (0 : Fin 2) * 2000 + 1 * r.val = p.val; omega
  | ⟨1, _⟩ => show win1_0.index t (1 : Fin 2) * 256 + 1 * j.val = j.val; omega

/-- The first layer's weights: the window's block is the whole array, at every point. -/
theorem blk_w1 (c : Dev nD) (t : Fin cfg1.N) : (iblk1 V c 1 t : S256x512.Idx → EReal) = (V c main_v21 : S256x512.Idx → EReal) := by
  obtain ⟨-, -, e2, e3, -⟩ := idx_facts t
  funext y
  show (V c main_v21 : S256x512.Idx → EReal) (((cfg1.win 1).blk t).view.emb y) = _
  refine congrArg _ ?_
  funext a; apply Fin.ext
  match a with
  | ⟨0, _⟩ => show win1_1.index t (0 : Fin 2) * 256 + 1 * (y 0).val = (y 0).val; omega
  | ⟨1, _⟩ => show win1_1.index t (1 : Fin 2) * 512 + 1 * (y 1).val = (y 1).val; omega

/-- The first bias row: the whole [1, 512] array. -/
theorem blk_b1 (c : Dev nD) (t : Fin cfg1.N) : (iblk1 V c 2 t : S1x512.Idx → EReal) = (V c main_v23 : S1x512.Idx → EReal) := by
  obtain ⟨-, -, -, -, e4, e5, -⟩ := idx_facts t
  funext y
  show (V c main_v23 : S1x512.Idx → EReal) (((cfg1.win 2).blk t).view.emb y) = _
  refine congrArg _ ?_
  funext a; apply Fin.ext
  match a with
  | ⟨0, _⟩ => show win1_2.index t (0 : Fin 2) * 1 + 1 * (y 0).val = (y 0).val; omega
  | ⟨1, _⟩ => show win1_2.index t (1 : Fin 2) * 512 + 1 * (y 1).val = (y 1).val; omega

/-- The second layer's weights: the whole array. -/
theorem blk_w2 (c : Dev nD) (t : Fin cfg1.N) : (iblk1 V c 3 t : S512x128.Idx → EReal) = (V c main_v22 : S512x128.Idx → EReal) := by
  obtain ⟨-, -, -, -, -, -, e6, e7, -⟩ := idx_facts t
  funext y
  show (V c main_v22 : S512x128.Idx → EReal) (((cfg1.win 3).blk t).view.emb y) = _
  refine congrArg _ ?_
  funext a; apply Fin.ext
  match a with
  | ⟨0, _⟩ => show win1_3.index t (0 : Fin 2) * 512 + 1 * (y 0).val = (y 0).val; omega
  | ⟨1, _⟩ => show win1_3.index t (1 : Fin 2) * 128 + 1 * (y 1).val = (y 1).val; omega

/-- The second bias row: the whole [1, 128] array. -/
theorem blk_b2 (c : Dev nD) (t : Fin cfg1.N) : (iblk1 V c 4 t : S1x128.Idx → EReal) = (V c main_v24 : S1x128.Idx → EReal) := by
  obtain ⟨-, -, -, -, -, -, -, -, e8, e9, -⟩ := idx_facts t
  funext y
  show (V c main_v24 : S1x128.Idx → EReal) (((cfg1.win 4).blk t).view.emb y) = _
  refine congrArg _ ?_
  funext a; apply Fin.ext
  match a with
  | ⟨0, _⟩ => show win1_4.index t (0 : Fin 2) * 1 + 1 * (y 0).val = (y 0).val; omega
  | ⟨1, _⟩ => show win1_4.index t (1 : Fin 2) * 128 + 1 * (y 1).val = (y 1).val; omega

/-! ## What a point writes back, and the cover -/

/-- WHAT POINT t WRITES BACK is block t of `G`: entry (r, q) of the stored block is the perceptron's entry of row r of
    the input block, which is row (2000 · block index + r) of the input array. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S2000x256) hz, View.ld_unit_zero (S := S256x512) hz, View.ld_unit_zero (S := S1x512) hz,
    View.ld_unit_zero (S := S512x128) hz, View.ld_unit_zero (S := S1x128) hz]
  obtain ⟨-, -, -, -, -, -, -, -, -, -, e10, e11⟩ := idx_facts t
  funext y
  obtain ⟨r, q, rfl⟩ : ∃ (r : Fin 2000) (q : Fin 128), y = ix2 r q := ⟨y 0, y 1, eq_ix2 y⟩
  refine (Cert.KernelIdeal.Body.pay1_apply _ _ _ _ _ r q).trans ?_
  rw [blk_w1 V c t, blk_b1 V c t, blk_w2 V c t, blk_b2 V c t]
  have hr : r.val < 2000 := r.isLt
  have hemb : ((cfg1.win 5).blk t).view.emb (ix2 r q)
      = (ix2 (⟨win1_5.index t (0 : Fin 2) * 2000 + r.val, by omega⟩ : Fin 50000) q : S50000x128.Idx) := by
    funext a; apply Fin.ext
    match a with
    | ⟨0, _⟩ => show win1_5.index t (0 : Fin 2) * 2000 + 1 * r.val = win1_5.index t (0 : Fin 2) * 2000 + r.val; omega
    | ⟨1, _⟩ => show win1_5.index t (1 : Fin 2) * 128 + 1 * q.val = q.val; omega
  show _ = G V c (((cfg1.win 5).blk t).view.emb (ix2 r q))
  rw [hemb]
  unfold G
  rw [Cert.Mlp.layer_ix2]
  exact Cert.Mlp.layerAt_congr_row _ _ _ _ _ _ r _ q (fun j => blk_x V c t r j _ rfl)

/-- An index of the output array is in point t's block iff each coordinate is in the block's range on its axis. -/
theorem mem_blk (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v25).slice (win1_5.rect t)).set ↔ _
  rw [View.set_slice_whole, Rect.mem_set_unit]
  exact Iff.rfl

/-- The 25 row blocks tile the output: row r lies in block r / 2000. -/
theorem cover (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := idx_onto ⟨(i 0).val / 2000, by omega⟩
  have q0 : win1_5.index t (0 : Fin 2) = (i 0).val / 2000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 128 ≤ (i 1).val ∧ (i 1).val < win1_5.index t (1 : Fin 2) * 128 + 128; omega

/-- THE OUTPUT ARRAY after the region: the perceptron of the input array as the region finds it. -/
theorem final (c : Dev nD) : (dat1 V c).arrAt 5 cfg1.N = G V c :=
  (dat1 V c).arrAt_eq_of_cover 5 (G V c) (fun t _ => flushed_eq V c t) cover

end Cert.KernelIdeal.Final1

end
-- ==== Proof.KernelHost.lean ====
/-
  What the host operations of the idealized kernel leave in the arrays its two regions read.

  The kernel's @main is a stretch of host operations, the first perceptron's region, a second stretch of host
  operations and the second perceptron's region. The first stretch converts the input and the two weight arrays of
  the first perceptron to a narrower float format and reshapes its two biases from [n] to [1, n]. The second stretch
  takes the first region's [50000, 256] result h and the [2, 800000] edge array e: row 0 of e, with a negative entry
  wrapped by adding 50000, says which row of h each of the 800000 edges reads (a gather), row 1 says which row of a
  zero [50000, 256] array that row is added into (a scatter-add); the sum is converted to the narrower format, and the
  second perceptron's weights and biases are converted and reshaped like the first's.

  On the extended reals a format change is the identity, and a reshape [n] → [1, n] reads, at (0, k), entry k. So at
  each region's entry: the input and weight arrays are the launch arrays themselves, a bias array at (0, k) is the
  launch bias at k, and the second region's input is `aggregate h e`, the gather and the scatter-add applied to the
  first region's result and the launch edge array — two operations that are never opened here.
-/
import proofs.«178029_j27376121545349_1_alg».proof.Proof.Gen.KernelIdeal.Frame
import Idealize.ShloMosaic.Lib.StableHlo.Run
import Idealize.ShloMosaic.Lib.ValueIdx
import Idealize.ShloMosaic.Lib.ValueLayout

set_option maxRecDepth 16384

noncomputable section

namespace Cert.KernelIdeal.Host

open Cert.KernelIdeal Cert.KernelIdeal.Gen Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-! ## The middle of the program as one function of the first perceptron's result and the edge array -/

/-- The row of `h` each edge reads: row 0 of the edge array as a flat [800000] array, an entry below zero replaced by
    itself plus 50000, as a [800000, 1] array of start indices. -/
def srcIdx (e : (⟨S2x800000, .i32⟩ : BufTy).Contents (Elt Ideal)) : (⟨S800000x1, .i32⟩ : BufTy).Contents (Elt Ideal) :=
  broadcastInDim S800000x1 ![0] bcast_S800000_S800000x1_0
    (select
      (cmpi .slt (shapeCast _ (extractStridedSlice S1x800000 ![0, 0] e slices_S2x800000_S1x800000_0_0) shapeCasts_S1x800000_S800000)
        (broadcastInDim S800000 ![] bcast_S_S800000 (constantI S_ 32 0#32)))
      (addi (shapeCast _ (extractStridedSlice S1x800000 ![0, 0] e slices_S2x800000_S1x800000_0_0) shapeCasts_S1x800000_S800000)
        (broadcastInDim S800000 ![] bcast_S_S800000 (constantI S_ 32 50000#32)))
      (shapeCast _ (extractStridedSlice S1x800000 ![0, 0] e slices_S2x800000_S1x800000_0_0) shapeCasts_S1x800000_S800000))

/-- The row each edge adds into: row 1 of the edge array as a flat [800000] array, as a [800000, 1] array of scatter
    indices. -/
def dstIdx (e : (⟨S2x800000, .i32⟩ : BufTy).Contents (Elt Ideal)) : (⟨S800000x1, .i32⟩ : BufTy).Contents (Elt Ideal) :=
  broadcastInDim S800000x1 ![0] bcast_S800000_S800000x1_0
    (shapeCast _ (extractStridedSlice S1x800000 ![1, 0] e slices_S2x800000_S1x800000_1_0) shapeCasts_S1x800000_S800000)

/-- The rows of `h` the edges read, added into the rows of a zero [50000, 256] array the edges name: the gather at
    `srcIdx e` followed by the scatter-add at `dstIdx e`. -/
def aggregate (h : (⟨S50000x256, .f32⟩ : BufTy).Contents (Elt Ideal)) (e : (⟨S2x800000, .i32⟩ : BufTy).Contents (Elt Ideal)) :
    (⟨S50000x256, .f32⟩ : BufTy).Contents (Elt Ideal) :=
  Host.scatterAdd scatter_S50000x256_S800000x1_S800000x256_1_0_0_1
    (broadcastInDim S50000x256 ![] bcast_S_S50000x256 (constant (F := Ideal) S_ .f32 0x00000000#32))
    (dstIdx e)
    (Host.gather gather_S50000x256_S800000x1_S800000x256_1_0_n_n_0_1_1256 h (srcIdx e))

/-- A narrowing format change of a whole array is the identity on the extended reals. -/
theorem truncf_bf16_eq {s : Shape} (a : FVec Ideal s .f32) :
    ((truncf .bf16 a bitsLt_bf16_f32 : FVec Ideal s .bf16) : s.Idx → EReal) = a := rfl

/-! ## The first region's entry: the first stretch of host operations from the launch contents -/

theorem entry0_x (c : Dev nD) : (V1 m ρ c main_v0 : S50000x128.Idx → EReal) = m ((c : Thread nD τ).loc main_arg0) := by
  show StableHlo.after hostOps0 (W0 m ρ c) (Proc.devRef .tc main_v0) = _
  after_results
  rfl

theorem entry0_w1 (c : Dev nD) : (V1 m ρ c main_v1 : S128x512.Idx → EReal) = m ((c : Thread nD τ).loc main_arg2) := by
  show StableHlo.after hostOps0 (W0 m ρ c) (Proc.devRef .tc main_v1) = _
  after_results
  rfl

theorem entry0_w2 (c : Dev nD) : (V1 m ρ c main_v2 : S512x256.Idx → EReal) = m ((c : Thread nD τ).loc main_arg4) := by
  show StableHlo.after hostOps0 (W0 m ρ c) (Proc.devRef .tc main_v2) = _
  after_results
  rfl

theorem entry0_b1 (c : Dev nD) (k : Fin 512) :
    (V1 m ρ c main_v3 : S1x512.Idx → EReal) (ix2 (0 : Fin 1) k) = (m ((c : Thread nD τ).loc main_arg3) : S512.Idx → EReal) (ix1 k) := by
  show StableHlo.after hostOps0 (W0 m ρ c) (Proc.devRef .tc main_v3) (ix2 (0 : Fin 1) k) = _
  after_results
  exact shapeCast_a_1a_apply _ _ _ _

theorem entry0_b2 (c : Dev nD) (k : Fin 256) :
    (V1 m ρ c main_v4 : S1x256.Idx → EReal) (ix2 (0 : Fin 1) k) = (m ((c : Thread nD τ).loc main_arg5) : S256.Idx → EReal) (ix1 k) := by
  show StableHlo.after hostOps0 (W0 m ρ c) (Proc.devRef .tc main_v4) (ix2 (0 : Fin 1) k) = _
  after_results
  exact shapeCast_a_1a_apply _ _ _ _

/-! ## An argument array at the first region's exit is the launch array

No operation of the first stretch writes an argument's buffer, and the first region writes only its own result array,
so the contents at the region's exit walk back to the launch memory. -/

theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg1) := rfl

theorem W2_main_arg6 (c : Dev nD) : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg6) := rfl

theorem W2_main_arg7 (c : Dev nD) : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg7) := rfl

theorem W2_main_arg8 (c : Dev nD) : W2 m ρ c (Proc.devRef .tc main_arg8) = m ((c : Thread nD τ).loc main_arg8) :=
  calc W2 m ρ c (Proc.devRef .tc main_arg8)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg8) := rfl

theorem W2_main_arg9 (c : Dev nD) : W2 m ρ c (Proc.devRef .tc main_arg9) = m ((c : Thread nD τ).loc main_arg9) :=
  calc W2 m ρ c (Proc.devRef .tc main_arg9)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg9) := rfl

/-! ## The second region's entry: the second stretch of host operations from the first region's exit -/

/-- The second region's input array is the gather and the scatter-add of the first region's result along the launch
    edge array (the closing format change is the identity). -/
theorem entry1_x (c : Dev nD) : (V3 m ρ c main_v20 : S50000x256.Idx → EReal)
    = aggregate (W2 m ρ c (Proc.devRef .tc main_v5)) (m ((c : Thread nD τ).loc main_arg1)) := by
  have hA := W2_main_arg1 m ρ c
  show StableHlo.after hostOps1 (W2 m ρ c) (Proc.devRef .tc main_v20)
    = aggregate (W2 m ρ c (Proc.devRef .tc main_v5)) (m ((c : Thread nD τ).loc main_arg1))
  -- the contents at the first region's exit enter only at two buffers: the edge array's and the region's result's
  generalize W2 m ρ c = Wv at hA ⊢
  after_results
  rw [hA]
  generalize Wv (Proc.devRef .tc main_v5) = H
  generalize m ((c : Thread nD τ).loc main_arg1) = A
  refine (truncf_bf16_eq _).trans ?_
  rfl

theorem entry1_w1 (c : Dev nD) : (V3 m ρ c main_v21 : S256x512.Idx → EReal) = m ((c : Thread nD τ).loc main_arg6) := by
  show StableHlo.after hostOps1 (W2 m ρ c) (Proc.devRef .tc main_v21) = _
  after_results
  rw [W2_main_arg6]
  rfl

theorem entry1_w2 (c : Dev nD) : (V3 m ρ c main_v22 : S512x128.Idx → EReal) = m ((c : Thread nD τ).loc main_arg8) := by
  show StableHlo.after hostOps1 (W2 m ρ c) (Proc.devRef .tc main_v22) = _
  after_results
  rw [W2_main_arg8]
  rfl

theorem entry1_b1 (c : Dev nD) (k : Fin 512) :
    (V3 m ρ c main_v23 : S1x512.Idx → EReal) (ix2 (0 : Fin 1) k) = (m ((c : Thread nD τ).loc main_arg7) : S512.Idx → EReal) (ix1 k) := by
  show StableHlo.after hostOps1 (W2 m ρ c) (Proc.devRef .tc main_v23) (ix2 (0 : Fin 1) k) = _
  after_results
  rw [W2_main_arg7]
  exact shapeCast_a_1a_apply _ _ _ _

theorem entry1_b2 (c : Dev nD) (k : Fin 128) :
    (V3 m ρ c main_v24 : S1x128.Idx → EReal) (ix2 (0 : Fin 1) k) = (m ((c : Thread nD τ).loc main_arg9) : S128.Idx → EReal) (ix1 k) := by
  show StableHlo.after hostOps1 (W2 m ρ c) (Proc.devRef .tc main_v24) (ix2 (0 : Fin 1) k) = _
  after_results
  rw [W2_main_arg9]
  exact shapeCast_a_1a_apply _ _ _ _

end Cert.KernelIdeal.Host

end
-- ==== Proof.RefLayers.lean ====
/-
  The reference's two perceptrons, read entry by entry.

  The reference applies a two-layer perceptron to every row of its input, gathers and scatter-adds rows of the
  result (two operations that are never opened here: their result stays an opaque [50000, 256] array), and applies a
  second two-layer perceptron to every row of that. Each perceptron is five array operations: a contraction with the
  first weights, the first bias broadcast along the rows and added on the right, the maximum with a broadcast zero on
  the right, a contraction with the second weights, and the second bias broadcast along the rows and added on the
  right. Entry (p, c) of the result therefore depends on row p of the input, all of the first layer's weights and
  bias, column c of the second layer's weights and entry c of its bias, and is
    (sum over k of  max(sum over j of x[p,j] * W1[j,k] + b1[k], 0) * W2[k,c]) + b2[c],
  with the operands in exactly this order: no commutativity, associativity or distributivity is used, so nothing
  needs the numbers to be finite.
-/
import proofs.«178029_j27376121545349_1_alg».proof.Proof.Gen.ReferenceIdeal.Read
import proofs.«178029_j27376121545349_1_alg».proof.Proof.MlpSpec

noncomputable section

open scoped BigOperators

namespace Cert.ReferenceIdeal.RefLayers

open Idealize.ShloMosaic Idealize.ShloMosaic.ValueIdx Cert.ReferenceIdeal Cert.ReferenceIdeal.Read

/-! ## Where each stage of the first perceptron reads its operands

A contraction's entry (p, c) reads the left operand along row p and the right operand along column c; a bias
broadcast along the rows reads, at (p, c), entry c of the bias (through a [1, n] intermediate). -/

/-- The second contraction of the first perceptron reads its left operand, at summand k of entry (p, c), at (p, k). -/
theorem lidx_v5 (p : Fin 50000) (c : Fin 256) (k : Fin 512) : lidx_main_v5 (ix2 p c) k = ix2 p k :=
  funext fun a => Fin.ext (by match a with | ⟨0, _⟩ => rfl | ⟨1, _⟩ => rfl)
/-- … and its right operand at (k, c). -/
theorem ridx_v5 (p : Fin 50000) (c : Fin 256) (k : Fin 512) : ridx_main_v5 (ix2 p c) k = ix2 k c :=
  funext fun a => Fin.ext (by match a with | ⟨0, _⟩ => rfl | ⟨1, _⟩ => rfl)
/-- The first contraction reads its left operand, at summand j of entry (p, k), at (p, j). -/
theorem lidx_v0 (p : Fin 50000) (k : Fin 512) (j : Fin 128) : lidx_main_v0 (ix2 p k) j = ix2 p j :=
  funext fun a => Fin.ext (by match a with | ⟨0, _⟩ => rfl | ⟨1, _⟩ => rfl)
/-- … and its right operand at (j, k). -/
theorem ridx_v0 (p : Fin 50000) (k : Fin 512) (j : Fin 128) : ridx_main_v0 (ix2 p k) j = ix2 j k :=
  funext fun a => Fin.ext (by match a with | ⟨0, _⟩ => rfl | ⟨1, _⟩ => rfl)
/-- The first bias, broadcast to [1, 512] and then along the rows, is read at (p, k) at its entry k. -/
theorem idx_v1_v2 (p : Fin 50000) (k : Fin 512) : idx_main_v1 (idx_main_v2 (ix2 p k)) = ix1 k :=
  funext fun a => Fin.ext (by match a with | ⟨0, _⟩ => rfl)
/-- The second bias, broadcast to [1, 256] and then along the rows, is read at (p, c) at its entry c. -/
theorem idx_v6_v7 (p : Fin 50000) (c : Fin 256) : idx_main_v6 (idx_main_v7 (ix2 p c)) = ix1 c :=
  funext fun a => Fin.ext (by match a with | ⟨0, _⟩ => rfl)

/-- Entry (p, k) of the rectified first layer: the contraction of row p of the input with column k of the first
    weights, plus entry k of the first bias, rectified against the zero word. -/
theorem hidden_first (x0 : (⟨S50000x128, .f32⟩ : BufTy).Contents (Elt Ideal)) (x2 : (⟨S128x512, .f32⟩ : BufTy).Contents (Elt Ideal))
    (x3 : (⟨S512, .f32⟩ : BufTy).Contents (Elt Ideal)) (p : Fin 50000) (k : Fin 512) :
    val_main_v4 (F := Ideal) x0 x2 x3 (ix2 p k)
      = max ((∑ j : Fin 128, x0 (ix2 p j) * x2 (ix2 j k)) + x3 (ix1 k)) (Ideal.ofBits .f32 0x00000000#32) := by
  rw [val_main_v4_apply, val_main_v3_apply, val_main_v0_apply, val_main_v2_apply, val_main_v1_apply,
    val_main_call0_v0_apply, val_main_call0_cst_apply, idx_v1_v2]
  refine congrArg₂ max (congrArg₂ (· + ·) (Finset.sum_congr rfl fun j _ => ?_) rfl) rfl
  rw [lidx_v0, ridx_v0]

/-- The first perceptron of the reference is the specification's layer of its input. -/
theorem first_layer (x0 : (⟨S50000x128, .f32⟩ : BufTy).Contents (Elt Ideal)) (x2 : (⟨S128x512, .f32⟩ : BufTy).Contents (Elt Ideal))
    (x3 : (⟨S512, .f32⟩ : BufTy).Contents (Elt Ideal)) (x4 : (⟨S512x256, .f32⟩ : BufTy).Contents (Elt Ideal))
    (x5 : (⟨S256, .f32⟩ : BufTy).Contents (Elt Ideal)) :
    val_main_v8 (F := Ideal) x0 x2 x3 x4 x5
      = Cert.Mlp.layer x0 x2 (fun k => x3 (ix1 k)) x4 (fun k => x5 (ix1 k)) := by
  funext i
  obtain ⟨p, c, rfl⟩ : ∃ (p : Fin 50000) (c : Fin 256), i = ix2 p c := ⟨i 0, i 1, eq_ix2 i⟩
  rw [Cert.Mlp.layer_ix2]
  unfold Cert.Mlp.layerAt Cert.Mlp.entry
  rw [val_main_v8_apply, val_main_v5_apply, val_main_v7_apply, val_main_v6_apply, idx_v6_v7]
  refine congrArg₂ (· + ·) (Finset.sum_congr rfl fun k _ => ?_) rfl
  rw [lidx_v5, ridx_v5, hidden_first]

/-! ## The second perceptron: the same five operations on the scatter's result

Its input is the [50000, 256] array the gather and the scatter-add produce, kept here as one opaque array `h`; the
weights are [256, 512] and [512, 128], so an entry (p, c) has c below 128 and sums over 512 hidden units, each a sum
over 256 inputs. -/

/-- The second contraction of the second perceptron reads its left operand, at summand k of entry (p, c), at (p, k). -/
theorem lidx_v28 (p : Fin 50000) (c : Fin 128) (k : Fin 512) : lidx_main_v28 (ix2 p c) k = ix2 p k :=
  funext fun a => Fin.ext (by match a with | ⟨0, _⟩ => rfl | ⟨1, _⟩ => rfl)
/-- … and its right operand at (k, c). -/
theorem ridx_v28 (p : Fin 50000) (c : Fin 128) (k : Fin 512) : ridx_main_v28 (ix2 p c) k = ix2 k c :=
  funext fun a => Fin.ext (by match a with | ⟨0, _⟩ => rfl | ⟨1, _⟩ => rfl)
/-- The first contraction reads its left operand, at summand j of entry (p, k), at (p, j). -/
theorem lidx_v23 (p : Fin 50000) (k : Fin 512) (j : Fin 256) : lidx_main_v23 (ix2 p k) j = ix2 p j :=
  funext fun a => Fin.ext (by match a with | ⟨0, _⟩ => rfl | ⟨1, _⟩ => rfl)
/-- … and its right operand at (j, k). -/
theorem ridx_v23 (p : Fin 50000) (k : Fin 512) (j : Fin 256) : ridx_main_v23 (ix2 p k) j = ix2 j k :=
  funext fun a => Fin.ext (by match a with | ⟨0, _⟩ => rfl | ⟨1, _⟩ => rfl)
/-- The first bias, broadcast to [1, 512] and then along the rows, is read at (p, k) at its entry k. -/
theorem idx_v24_v25 (p : Fin 50000) (k : Fin 512) : idx_main_v24 (idx_main_v25 (ix2 p k)) = ix1 k :=
  funext fun a => Fin.ext (by match a with | ⟨0, _⟩ => rfl)
/-- The second bias, broadcast to [1, 128] and then along the rows, is read at (p, c) at its entry c. -/
theorem idx_v29_v30 (p : Fin 50000) (c : Fin 128) : idx_main_v29 (idx_main_v30 (ix2 p c)) = ix1 c :=
  funext fun a => Fin.ext (by match a with | ⟨0, _⟩ => rfl)

/-- Entry (p, k) of the rectified first layer of the second perceptron: the contraction of row p of the scatter's
    result with column k of the first weights, plus entry k of the first bias, rectified against the zero word. -/
theorem hidden_second (x0 : (⟨S50000x128, .f32⟩ : BufTy).Contents (Elt Ideal)) (x1 : (⟨S2x800000, .i32⟩ : BufTy).Contents (Elt Ideal))
    (x2 : (⟨S128x512, .f32⟩ : BufTy).Contents (Elt Ideal)) (x3 : (⟨S512, .f32⟩ : BufTy).Contents (Elt Ideal))
    (x4 : (⟨S512x256, .f32⟩ : BufTy).Contents (Elt Ideal)) (x5 : (⟨S256, .f32⟩ : BufTy).Contents (Elt Ideal))
    (x6 : (⟨S256x512, .f32⟩ : BufTy).Contents (Elt Ideal)) (x7 : (⟨S512, .f32⟩ : BufTy).Contents (Elt Ideal))
    (p : Fin 50000) (k : Fin 512) :
    val_main_v27 (F := Ideal) x0 x1 x2 x3 x4 x5 x6 x7 (ix2 p k)
      = max ((∑ j : Fin 256, val_main_v22 (F := Ideal) x0 x1 x2 x3 x4 x5 (ix2 p j) * x6 (ix2 j k)) + x7 (ix1 k))
          (Ideal.ofBits .f32 0x00000000#32) := by
  rw [val_main_v27_apply, val_main_v26_apply, val_main_v23_apply, val_main_v25_apply, val_main_v24_apply,
    val_main_call1_v0_apply, val_main_call1_cst_apply, idx_v24_v25]
  generalize val_main_v22 (F := Ideal) x0 x1 x2 x3 x4 x5 = h
  refine congrArg₂ max (congrArg₂ (· + ·) (Finset.sum_congr rfl fun j _ => ?_) rfl) rfl
  rw [lidx_v23, ridx_v23]

/-- The second perceptron of the reference is the specification's layer of the scatter's result. -/
theorem second_layer (x0 : (⟨S50000x128, .f32⟩ : BufTy).Contents (Elt Ideal)) (x1 : (⟨S2x800000, .i32⟩ : BufTy).Contents (Elt Ideal))
    (x2 : (⟨S128x512, .f32⟩ : BufTy).Contents (Elt Ideal)) (x3 : (⟨S512, .f32⟩ : BufTy).Contents (Elt Ideal))
    (x4 : (⟨S512x256, .f32⟩ : BufTy).Contents (Elt Ideal)) (x5 : (⟨S256, .f32⟩ : BufTy).Contents (Elt Ideal))
    (x6 : (⟨S256x512, .f32⟩ : BufTy).Contents (Elt Ideal)) (x7 : (⟨S512, .f32⟩ : BufTy).Contents (Elt Ideal))
    (x8 : (⟨S512x128, .f32⟩ : BufTy).Contents (Elt Ideal)) (x9 : (⟨S128, .f32⟩ : BufTy).Contents (Elt Ideal)) :
    val_main_v31 (F := Ideal) x0 x1 x2 x3 x4 x5 x6 x7 x8 x9
      = Cert.Mlp.layer (val_main_v22 (F := Ideal) x0 x1 x2 x3 x4 x5) x6 (fun k => x7 (ix1 k)) x8 (fun k => x9 (ix1 k)) := by
  funext i
  obtain ⟨p, c, rfl⟩ : ∃ (p : Fin 50000) (c : Fin 128), i = ix2 p c := ⟨i 0, i 1, eq_ix2 i⟩
  rw [Cert.Mlp.layer_ix2]
  unfold Cert.Mlp.layerAt Cert.Mlp.entry
  rw [val_main_v31_apply, val_main_v28_apply, val_main_v30_apply, val_main_v29_apply, idx_v29_v30]
  refine congrArg₂ (· + ·) (Finset.sum_congr rfl fun k _ => ?_) rfl
  rw [lidx_v28, ridx_v28, hidden_second]

end Cert.ReferenceIdeal.RefLayers

end
-- ==== Proof.Bridge.lean ====
/-
  The two programs are one function of the ten argument arrays.

  `result` is that function: the first perceptron of (x, W1i, b1i, W2i, b2i), its rows gathered by the edges' sources
  and summed into the edges' destinations (the host's gather and scatter-add, kept as the one function
  `aggregate` and never opened), then the second perceptron with (W1f, b1f, W2f, b2f).

  The kernel's side: its result buffer after the run is the second region's output array, which is the perceptron of
  the arrays that region finds; those are the aggregate of the first region's output array (itself the first
  perceptron of what ITS region finds) and the second layer's weights and bias rows; a change of float format is the
  identity on the extended reals and a bias reshaped to one row keeps its entries. The reference's side: its last
  stage is the second perceptron of its scatter's result, which is the aggregate of its first perceptron. The two
  programs' gather and scatter-add are the same operations with the same dimension numbers, applied to the same index
  arrays, so the two aggregates are one term.
-/
import proofs.«178029_j27376121545349_1_alg».proof.Proof.KernelRun
import proofs.«178029_j27376121545349_1_alg».proof.Proof.KernelFinal0
import proofs.«178029_j27376121545349_1_alg».proof.Proof.KernelFinal1
import proofs.«178029_j27376121545349_1_alg».proof.Proof.KernelHost
import proofs.«178029_j27376121545349_1_alg».proof.Proof.RefLayers

noncomputable section

namespace Cert.Bridge

open Idealize.ShloMosaic Idealize.ShloMosaic.TcCoe Idealize.SL.Sem Idealize.ShloMosaic.ValueIdx

/-- The whole program on the extended reals: perceptron, aggregation over the edges, perceptron. -/
def result (x0 : (⟨Cert.KernelIdeal.S50000x128, .f32⟩ : BufTy).Contents (Elt Ideal)) (x1 : (⟨Cert.KernelIdeal.S2x800000, .i32⟩ : BufTy).Contents (Elt Ideal))
    (x2 : (⟨Cert.KernelIdeal.S128x512, .f32⟩ : BufTy).Contents (Elt Ideal)) (x3 : (⟨Cert.KernelIdeal.S512, .f32⟩ : BufTy).Contents (Elt Ideal))
    (x4 : (⟨Cert.KernelIdeal.S512x256, .f32⟩ : BufTy).Contents (Elt Ideal)) (x5 : (⟨Cert.KernelIdeal.S256, .f32⟩ : BufTy).Contents (Elt Ideal))
    (x6 : (⟨Cert.KernelIdeal.S256x512, .f32⟩ : BufTy).Contents (Elt Ideal)) (x7 : (⟨Cert.KernelIdeal.S512, .f32⟩ : BufTy).Contents (Elt Ideal))
    (x8 : (⟨Cert.KernelIdeal.S512x128, .f32⟩ : BufTy).Contents (Elt Ideal)) (x9 : (⟨Cert.KernelIdeal.S128, .f32⟩ : BufTy).Contents (Elt Ideal)) :
    (⟨Cert.KernelIdeal.S50000x128, .f32⟩ : BufTy).Contents (Elt Ideal) :=
  Cert.Mlp.layer
    (Cert.KernelIdeal.Host.aggregate (Cert.Mlp.layer x0 x2 (fun k => x3 (ix1 k)) x4 (fun k => x5 (ix1 k))) x1)
    x6 (fun k => x7 (ix1 k)) x8 (fun k => x9 (ix1 k))

/-- Equal inputs, weights and biases give equal perceptron layers. -/
theorem layer_congr {N A H O : ℕ} {X X' : (⟨2, ![N, A]⟩ : Shape).Idx → EReal} {W1 W1' : (⟨2, ![A, H]⟩ : Shape).Idx → EReal}
    {b1 b1' : Fin H → EReal} {W2 W2' : (⟨2, ![H, O]⟩ : Shape).Idx → EReal} {b2 b2' : Fin O → EReal}
    (hX : X = X') (h1 : W1 = W1') (hb1 : b1 = b1') (h2 : W2 = W2') (hb2 : b2 = b2') :
    Cert.Mlp.layer X W1 b1 W2 b2 = Cert.Mlp.layer X' W1' b1' W2' b2' := by
  subst hX h1 hb1 h2 hb2; rfl

section Kernel

open Cert.KernelIdeal Cert.KernelIdeal.Gen

variable (m : (ℓ : Loc Cert.KernelIdeal.nD Cert.KernelIdeal.τ Cert.KernelIdeal.sig) → Buf (Elt Ideal) ℓ) (ρ : Dev Cert.KernelIdeal.nD → PrngReg)

/-- The first region's output array after its last write-back: the first perceptron of the argument arrays. -/
theorem first_output (c : Dev Cert.KernelIdeal.nD) :
    W2 m ρ c (Proc.devRef .tc main_v5)
      = Cert.Mlp.layer (m ((c : Thread Cert.KernelIdeal.nD Cert.KernelIdeal.τ).loc Cert.KernelIdeal.main_arg0)) (m ((c : Thread Cert.KernelIdeal.nD Cert.KernelIdeal.τ).loc Cert.KernelIdeal.main_arg2)) (fun k => (m ((c : Thread Cert.KernelIdeal.nD Cert.KernelIdeal.τ).loc Cert.KernelIdeal.main_arg3)) (ix1 k))
          (m ((c : Thread Cert.KernelIdeal.nD Cert.KernelIdeal.τ).loc Cert.KernelIdeal.main_arg4)) (fun k => (m ((c : Thread Cert.KernelIdeal.nD Cert.KernelIdeal.τ).loc Cert.KernelIdeal.main_arg5)) (ix1 k)) := by
  refine (W2_arr m ρ c 5).trans ((Cert.KernelIdeal.Final0.final (V1 m ρ) c).trans ?_)
  unfold Cert.KernelIdeal.Final0.G
  exact layer_congr (Cert.KernelIdeal.Host.entry0_x m ρ c) (Cert.KernelIdeal.Host.entry0_w1 m ρ c) (funext fun k => Cert.KernelIdeal.Host.entry0_b1 m ρ c k)
    (Cert.KernelIdeal.Host.entry0_w2 m ρ c) (funext fun k => Cert.KernelIdeal.Host.entry0_b2 m ρ c k)

/-- The kernel's result buffer after the run is `result` of the argument arrays. -/
theorem kernel_result (c : Dev Cert.KernelIdeal.nD) :
    W4 m ρ c (Proc.devRef .tc main_v25)
      = result (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4))
          (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) := by
  refine (W4_arr m ρ c 5).trans ((Cert.KernelIdeal.Final1.final (V3 m ρ) c).trans ?_)
  unfold Cert.KernelIdeal.Final1.G result
  exact layer_congr
    ((Cert.KernelIdeal.Host.entry1_x m ρ c).trans
      (congrArg (fun h => Cert.KernelIdeal.Host.aggregate h (m ((c : Thread Cert.KernelIdeal.nD Cert.KernelIdeal.τ).loc Cert.KernelIdeal.main_arg1))) (first_output m ρ c)))
    (Cert.KernelIdeal.Host.entry1_w1 m ρ c) (funext fun k => Cert.KernelIdeal.Host.entry1_b1 m ρ c k)
    (Cert.KernelIdeal.Host.entry1_w2 m ρ c) (funext fun k => Cert.KernelIdeal.Host.entry1_b2 m ρ c k)

end Kernel

section Reference

open Cert.ReferenceIdeal Cert.ReferenceIdeal.Read

/-- The reference's scatter result is the aggregate of its first perceptron: the same gather and scatter-add, with
    the same dimension numbers and the same index arrays, as the kernel's host operations. -/
theorem reference_aggregate (x0 : (⟨Cert.ReferenceIdeal.S50000x128, .f32⟩ : BufTy).Contents (Elt Ideal)) (x1 : (⟨Cert.ReferenceIdeal.S2x800000, .i32⟩ : BufTy).Contents (Elt Ideal))
    (x2 : (⟨Cert.ReferenceIdeal.S128x512, .f32⟩ : BufTy).Contents (Elt Ideal)) (x3 : (⟨Cert.ReferenceIdeal.S512, .f32⟩ : BufTy).Contents (Elt Ideal))
    (x4 : (⟨Cert.ReferenceIdeal.S512x256, .f32⟩ : BufTy).Contents (Elt Ideal)) (x5 : (⟨Cert.ReferenceIdeal.S256, .f32⟩ : BufTy).Contents (Elt Ideal)) :
    val_main_v22 (F := Ideal) x0 x1 x2 x3 x4 x5 = Cert.KernelIdeal.Host.aggregate (val_main_v8 (F := Ideal) x0 x2 x3 x4 x5) x1 := by
  unfold val_main_v22 val_main_v19
  generalize val_main_v8 (F := Ideal) x0 x2 x3 x4 x5 = h
  rfl

/-- The reference's last stage is `result` of its arguments. -/
theorem reference_result (x0 : (⟨Cert.ReferenceIdeal.S50000x128, .f32⟩ : BufTy).Contents (Elt Ideal)) (x1 : (⟨Cert.ReferenceIdeal.S2x800000, .i32⟩ : BufTy).Contents (Elt Ideal))
    (x2 : (⟨Cert.ReferenceIdeal.S128x512, .f32⟩ : BufTy).Contents (Elt Ideal)) (x3 : (⟨Cert.ReferenceIdeal.S512, .f32⟩ : BufTy).Contents (Elt Ideal))
    (x4 : (⟨Cert.ReferenceIdeal.S512x256, .f32⟩ : BufTy).Contents (Elt Ideal)) (x5 : (⟨Cert.ReferenceIdeal.S256, .f32⟩ : BufTy).Contents (Elt Ideal))
    (x6 : (⟨Cert.ReferenceIdeal.S256x512, .f32⟩ : BufTy).Contents (Elt Ideal)) (x7 : (⟨Cert.ReferenceIdeal.S512, .f32⟩ : BufTy).Contents (Elt Ideal))
    (x8 : (⟨Cert.ReferenceIdeal.S512x128, .f32⟩ : BufTy).Contents (Elt Ideal)) (x9 : (⟨Cert.ReferenceIdeal.S128, .f32⟩ : BufTy).Contents (Elt Ideal)) :
    val_main_v31 (F := Ideal) x0 x1 x2 x3 x4 x5 x6 x7 x8 x9 = result x0 x1 x2 x3 x4 x5 x6 x7 x8 x9 := by
  rw [Cert.ReferenceIdeal.RefLayers.second_layer, reference_aggregate, Cert.ReferenceIdeal.RefLayers.first_layer]
  rfl

end Reference

end Cert.Bridge

end
-- ==== Proof.lean ====
/-
  The certificate: a graph layer — a two-layer perceptron on every node, a sum over incoming edges of the source
  nodes' rows, and a second two-layer perceptron — computed by two row-blocked kernels around the host's gather and
  scatter-add, against the same layer written with whole-array matrix products.

  On the extended reals both programs are one function of the ten argument arrays (Proof/Bridge.lean's `result`):
    h     = max(x · W1i + b1i, 0) · W2i + b2i                        (Proof/MlpSpec.lean, entry by entry)
    h_agg = sum over edges e with destination n of h[source e]       (the host's gather and scatter-add, never opened)
    out   = max(h_agg · W1f + b1f, 0) · W2f + b2f.
  The kernels change the float format of their matrix operands, which is the identity on the extended reals, and
  compute 2000 rows at a time; an entry of a perceptron depends only on its own row of the input, so the 25 row blocks
  of each call are the blocks of one whole-array function (Proof/KernelFinal0.lean, Proof/KernelFinal1.lean, over the
  body read at an entry in Proof/KernelBody.lean). The two sides apply the same operations in the same order, so no
  law that would need finite inputs is used and the precondition is never opened.

  The three frames are the programs' runs (the reference's with its result dropped); the idealization rewrote no
  operation, so there is nothing to preserve; the value claim pairs the kernel's run with its result named
  (Proof/KernelRun.lean) with the reference's run, both at `result` of the arguments.
-/
import proofs.«178029_j27376121545349_1_alg».proof.Defs
import proofs.«178029_j27376121545349_1_alg».proof.Proof.Gen.Kernel
import proofs.«178029_j27376121545349_1_alg».proof.Proof.Gen.Kernel.Skeleton
import proofs.«178029_j27376121545349_1_alg».proof.Proof.Gen.Kernel.Launch
import proofs.«178029_j27376121545349_1_alg».proof.Proof.Gen.Kernel.Points
import proofs.«178029_j27376121545349_1_alg».proof.Proof.Gen.Kernel.Frame
import proofs.«178029_j27376121545349_1_alg».proof.Proof.Gen.KernelIdeal
import proofs.«178029_j27376121545349_1_alg».proof.Proof.Gen.KernelIdeal.Skeleton
import proofs.«178029_j27376121545349_1_alg».proof.Proof.Gen.KernelIdeal.Launch
import proofs.«178029_j27376121545349_1_alg».proof.Proof.Gen.KernelIdeal.Points
import proofs.«178029_j27376121545349_1_alg».proof.Proof.Gen.KernelIdeal.Frame
import proofs.«178029_j27376121545349_1_alg».proof.Proof.Gen.ReferenceIdeal
import proofs.«178029_j27376121545349_1_alg».proof.Proof.Gen.ReferenceIdeal.Run
import proofs.«178029_j27376121545349_1_alg».proof.Proof.Gen.ReferenceIdeal.Read
import proofs.«178029_j27376121545349_1_alg».proof.Proof.Gen.Pre_finite_inputs
import proofs.«178029_j27376121545349_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation: there is nothing to preserve. -/
theorem preserves : Cert.preserves_Kernel_KernelIdeal := trivial

/-- From memories that agree on the arguments, the kernel's result buffer ends at `result` of its arguments and the
    reference's at `result` of its own, which are the same arrays. -/
theorem algebraic : Cert.algebraic_KernelIdeal_ReferenceIdeal := by
  intro m ρ m' ρ' _ hagree
  refine ⟨fun c => Cert.Bridge.result (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4))
      (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)), ?_, ?_⟩
  · exact (θ_run Cert.KernelIdeal.defs _ _).mono
      (fun _ h c => ⟨(h c).1.trans (Cert.Bridge.kernel_result m ρ c), (h c).2⟩)
      (Cert.KernelIdeal.Result.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v31_eq, Cert.Bridge.reference_result]
    obtain ⟨a0, a1, a2, a3, a4, a5, a6, a7, a8, a9⟩ := hagree c
    rw [a0, a1, a2, a3, a4, a5, a6, a7, a8, a9]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
